-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x1 : Shape := ⟨2, ![8192, 1]⟩
abbrev S4x1x8192 : Shape := ⟨3, ![4, 1, 8192]⟩
abbrev S2048x64 : Shape := ⟨2, ![2048, 64]⟩
abbrev S2048x1 : Shape := ⟨2, ![2048, 1]⟩
abbrev S1x1x2048 : Shape := ⟨3, ![1, 1, 2048]⟩
abbrev S2048 : Shape := ⟨1, ![2048]⟩
abbrev S1x2048 : Shape := ⟨2, ![1, 2048]⟩
abbrev S2048x2048 : Shape := ⟨2, ![2048, 2048]⟩
abbrev S8192 : Shape := ⟨1, ![8192]⟩
abbrev S_ : Shape := ⟨0, ![]⟩
abbrev S4x8192 : Shape := ⟨2, ![4, 8192]⟩

abbrev nBuf : Space → Nat
  | .hbm => 25
  | .vmem => 9
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x1, .f32⟩
  | .hbm, ⟨3, _⟩ => ⟨S4x1x8192, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S4x8192, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x1, .f32⟩
  | .local _ .vmem, ⟨5, _⟩ => ⟨S2048x1, .f32⟩
  | .local _ .vmem, ⟨6, _⟩ => ⟨S1x1x2048, .f32⟩
  | .local _ .vmem, ⟨7, _⟩ => ⟨S1x1x2048, .f32⟩
  | .local _ .vmem, ⟨8, _⟩ => ⟨S2048x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_16 : BitVec 32 := 0#32
  let v33 : BitVec 1 := Scalar.cmpi .ne v32 c0_i32_16
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  reduces_S2048x64_S2048 : S2048x64.Reduces [1] S2048
  shapeCasts_S2048_S2048x1 : S2048.ShapeCasts S2048x1
  transposes_S2048x1_p1_0_S1x2048 : S2048x1.Transposes [1, 0] S1x2048
  broadcasts_S2048x1_S2048x2048 : S2048x1.Broadcasts S2048x2048
  broadcasts_S1x2048_S2048x2048 : S1x2048.Broadcasts S2048x2048
  reduces_S2048x2048_S2048 : S2048x2048.Reduces [1] S2048
  reduces_S2048x2048_S2048_2 : S2048x2048.Reduces [0] S2048
  shapeCasts_S2048_S1x2048 : S2048.ShapeCasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S8192x1_S8192 : S8192x1.ShapeCasts S8192
  bcast_S_S8192 : S_.BroadcastsInDim S8192 (![] : Fin 0 → Fin S8192.rank)
  shapeCasts_S4x1x8192_S4x8192 : S4x1x8192.ShapeCasts S4x8192
  reducesTo_S4x8192_S8192_d0 : S4x8192.ReducesTo [0] S8192
  h_S_ : 0 < S_.numel
  reducesTo_S8192_S_d0 : S8192.ReducesTo [0] S_
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x8192.size a
  hwx0_3 : ∀ i : grid0.Coords, EltTy.bits .f32 = 32 ∨ (Rect.block (s := S4x1x8192) S1x1x2048.size (cc0_transform_3 i) (hinb0_3 i)).WholeWords (EltTy.packing .f32)

variable [Facts₀]

def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S64x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  reducesTo_S8192x8192_S8192_d0 : S8192x8192.ReducesTo [0] S8192
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Pieces.lean ====
/-
  What one visit of the grid leaves behind, case by case.

  The body keeps a running column of 2048 row minima in a buffer that survives from one visit to the next. At the first
  column tile of a row of tiles it resets that buffer to +∞ before folding; at every tile it folds the tile's row minima
  into the buffer and writes the tile's column minima out; at the last column tile it also copies the buffer to the
  row-minimum output. So whatever the case, the buffer ends at "previous contents (or +∞ after a reset) against the
  tile's row minima", the column output at the tile's column minima, and in the last case the row output at the buffer.
  Each statement reads the stores the run found: a later store of a whole buffer hides every earlier one, and a load of
  a buffer just stored whole reads what was stored.
-/
import proofs.«165098_j65635690217854_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## First column tile: the running minima restart from +∞ -/

/-- The buffer ends at +∞ folded against the tile's row minima. -/
theorem sout_A (c : Dev nD) (i : grid0.Coords) (arg2 : Memref sig .tc .vmem S2048x64 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1x1x2048 .f32) (harg5 : arg5.IsWhole) (arg6 : Memref sig .tc .vmem S2048x1 .f32) (harg6 : arg6.IsWhole) (hc0 : cond0_0 i) (hc1 : ¬cond0_1 i)
    (x0 : Vec F S2048x64 .f32) (x1 : Vec F S2048x64 .f32) :
    sout0_A_0 c i arg2 harg2 arg3 harg3 arg4 harg4 arg5 harg5 arg6 harg6 hc0 hc1 x0 x1 = k0_pay3 x0 x1 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S2048x1) hz2, View.readCov_unit_zero (S := S2048x1) _ hz2]
  simp only [View.readAt_eq_ld, harg2.read_unread, harg3.read_unread, harg6.read_unread, View.ld_unit_zero (S := S2048x64) hz2, View.ld_unit_zero (S := S2048x1) hz2]

/-- The column output ends at the tile's column minima. -/
theorem out3_A (c : Dev nD) (i : grid0.Coords) (arg2 : Memref sig .tc .vmem S2048x64 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1x1x2048 .f32) (harg5 : arg5.IsWhole) (arg6 : Memref sig .tc .vmem S2048x1 .f32) (harg6 : arg6.IsWhole) (hc0 : cond0_0 i) (hc1 : ¬cond0_1 i)
    (x0 : Vec F S2048x64 .f32) (x1 : Vec F S2048x64 .f32) :
    out0_A_3 c i arg2 harg2 arg3 harg3 arg4 harg4 arg5 harg5 arg6 harg6 hc0 hc1 x0 x1 = k0_pay4 x0 x1 := by
  unfold out0_A_3
  rw [View.read_writes_eq_canon _ _ _ (cover0_A_3 c i arg2 harg2 arg3 harg3 arg4 harg4 arg5 harg5 arg6 harg6 hc0 hc1 x0 x1)]
  unfold kernelRun0_A
  dsimp only
  sl_unfold_words
  rw [View.canon_unit_zero (S := S1x1x2048) hz3]
  simp only [View.readAt_eq_ld, harg2.read_unread, harg3.read_unread, harg6.read_unread, View.ld_unit_zero (S := S2048x64) hz2, View.ld_unit_zero (S := S2048x1) hz2]

/-! ## A middle column tile: the running minima continue -/

/-- The buffer ends at its previous contents folded against the tile's row minima. -/
theorem sout_B (c : Dev nD) (i : grid0.Coords) (arg2 : Memref sig .tc .vmem S2048x64 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1x1x2048 .f32) (harg5 : arg5.IsWhole) (arg6 : Memref sig .tc .vmem S2048x1 .f32) (harg6 : arg6.IsWhole) (hc0 : ¬cond0_0 i) (hc1 : ¬cond0_1 i)
    (x0 : Vec F S2048x64 .f32) (x1 : Vec F S2048x64 .f32) (xs0 : Vec F S2048x1 .f32) :
    sout0_B_0 c i arg2 harg2 arg3 harg3 arg4 harg4 arg5 harg5 arg6 harg6 hc0 hc1 x0 x1 xs0 = k0_pay3 x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero (S := S2048x1) hz2]
  simp only [View.readAt_eq_ld, harg2.read_unread, harg3.read_unread, harg6.read_unread, View.ld_unit_zero (S := S2048x64) hz2, View.ld_unit_zero (S := S2048x1) hz2]

/-- The column output ends at the tile's column minima. -/
theorem out3_B (c : Dev nD) (i : grid0.Coords) (arg2 : Memref sig .tc .vmem S2048x64 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1x1x2048 .f32) (harg5 : arg5.IsWhole) (arg6 : Memref sig .tc .vmem S2048x1 .f32) (harg6 : arg6.IsWhole) (hc0 : ¬cond0_0 i) (hc1 : ¬cond0_1 i)
    (x0 : Vec F S2048x64 .f32) (x1 : Vec F S2048x64 .f32) (xs0 : Vec F S2048x1 .f32) :
    out0_B_3 c i arg2 harg2 arg3 harg3 arg4 harg4 arg5 harg5 arg6 harg6 hc0 hc1 x0 x1 xs0 = k0_pay4 x0 x1 := by
  unfold out0_B_3
  rw [View.read_writes_eq_canon _ _ _ (cover0_B_3 c i arg2 harg2 arg3 harg3 arg4 harg4 arg5 harg5 arg6 harg6 hc0 hc1 x0 x1 xs0)]
  unfold kernelRun0_B
  dsimp only
  sl_unfold_words
  rw [View.canon_unit_zero (S := S1x1x2048) hz3]
  simp only [View.readAt_eq_ld, harg2.read_unread, harg3.read_unread, harg6.read_unread, View.ld_unit_zero (S := S2048x64) hz2, View.ld_unit_zero (S := S2048x1) hz2]

/-! ## The last column tile: the running minima are also written out -/

/-- The buffer ends at its previous contents folded against the tile's row minima. -/
theorem sout_C (c : Dev nD) (i : grid0.Coords) (arg2 : Memref sig .tc .vmem S2048x64 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1x1x2048 .f32) (harg5 : arg5.IsWhole) (arg6 : Memref sig .tc .vmem S2048x1 .f32) (harg6 : arg6.IsWhole) (hc0 : ¬cond0_0 i) (hc1 : cond0_1 i)
    (x0 : Vec F S2048x64 .f32) (x1 : Vec F S2048x64 .f32) (xs0 : Vec F S2048x1 .f32) :
    sout0_C_0 c i arg2 harg2 arg3 harg3 arg4 harg4 arg5 harg5 arg6 harg6 hc0 hc1 x0 x1 xs0 = k0_pay3 x0 x1 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero (S := S2048x1) hz2]
  simp only [View.readAt_eq_ld, harg2.read_unread, harg3.read_unread, harg6.read_unread, View.ld_unit_zero (S := S2048x64) hz2, View.ld_unit_zero (S := S2048x1) hz2]

/-- The row output ends at the buffer's new contents: it is stored from a load of the buffer just written. -/
theorem out2_C (c : Dev nD) (i : grid0.Coords) (arg2 : Memref sig .tc .vmem S2048x64 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1x1x2048 .f32) (harg5 : arg5.IsWhole) (arg6 : Memref sig .tc .vmem S2048x1 .f32) (harg6 : arg6.IsWhole) (hc0 : ¬cond0_0 i) (hc1 : cond0_1 i)
    (x0 : Vec F S2048x64 .f32) (x1 : Vec F S2048x64 .f32) (xs0 : Vec F S2048x1 .f32) :
    out0_C_2 c i arg2 harg2 arg3 harg3 arg4 harg4 arg5 harg5 arg6 harg6 hc0 hc1 x0 x1 xs0 = k0_pay3 x0 x1 xs0 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero (S := S2048x1) hz2, View.readCov_unit_zero (S := S2048x1) _ hz2]
  simp only [View.readAt_eq_ld, harg2.read_unread, harg3.read_unread, harg6.read_unread, View.ld_unit_zero (S := S2048x64) hz2, View.ld_unit_zero (S := S2048x1) hz2]

/-- The column output ends at the tile's column minima. -/
theorem out3_C (c : Dev nD) (i : grid0.Coords) (arg2 : Memref sig .tc .vmem S2048x64 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1x1x2048 .f32) (harg5 : arg5.IsWhole) (arg6 : Memref sig .tc .vmem S2048x1 .f32) (harg6 : arg6.IsWhole) (hc0 : ¬cond0_0 i) (hc1 : cond0_1 i)
    (x0 : Vec F S2048x64 .f32) (x1 : Vec F S2048x64 .f32) (xs0 : Vec F S2048x1 .f32) :
    out0_C_3 c i arg2 harg2 arg3 harg3 arg4 harg4 arg5 harg5 arg6 harg6 hc0 hc1 x0 x1 xs0 = k0_pay4 x0 x1 := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero (S := S1x1x2048) hz3]
  simp only [View.readAt_eq_ld, harg2.read_unread, harg3.read_unread, harg6.read_unread, View.ld_unit_zero (S := S2048x64) hz2, View.ld_unit_zero (S := S2048x1) hz2]

end Cert.KernelIdeal.Pieces

end
-- ==== Proof.Spec.lean ====
/-
  The quantity both programs compute, stated once over the extended reals.

  Two clouds of 8192 points in 64 coordinates, `X` and `Y`. The squared distance between point `n` of `X` and point `p` of
  `Y` is taken through the expansion |x|² + |y|² − 2·⟨x, y⟩. Every point of `X` keeps the least squared distance to a
  point of `Y` (a row minimum), every point of `Y` the least squared distance to a point of `X` (a column minimum); each
  minimum is clamped at zero and rooted, and the two families of roots are averaged; the result is the sum of the two
  averages. The minima are finite infima in the complete lattice of extended reals, so they are stated with `Finset.inf`
  and handled through their universal property: `z ≤ inf` exactly when `z` is below every member.

  The same definitions at 2048 rows describe one tile of the distance matrix, which is why the row counts are parameters.
-/
import Idealize.ShloMosaic.PureOps.Ideal
import Idealize.ShloMosaic.PureOps.Ideal.Laws
import Idealize.ShloMosaic.Lib.ValueIdx

noncomputable section

namespace Cert.Nearest

open Idealize.ShloMosaic Idealize.ShloMosaic.ValueIdx
open scoped BigOperators

/-- A cloud of `a` points, each with 64 coordinates, as an array of extended reals. -/
abbrev Cloud (a : ℕ) : Type := (⟨2, ![a, 64]⟩ : Shape).Idx → EReal

/-- The squared norm of point `n`: the sum of the squares of its coordinates. -/
def sqNorm {a : ℕ} (X : Cloud a) (n : Fin a) : EReal := ∑ k : Fin 64, X (ix2 n k) * X (ix2 n k)

/-- The inner product of point `n` of `X` with point `p` of `Y`. -/
def inner {a b : ℕ} (X : Cloud a) (Y : Cloud b) (n : Fin a) (p : Fin b) : EReal := ∑ k : Fin 64, X (ix2 n k) * Y (ix2 p k)

/-- The number two, as the binary32 pattern both programs carry. -/
def two : EReal := Ideal.ofBits .f32 0x40000000#32

/-- The squared distance through the expansion (|x|² + |y|²) − 2·⟨x, y⟩, grouped as both programs group it. -/
def sqDist {a b : ℕ} (X : Cloud a) (Y : Cloud b) (n : Fin a) (p : Fin b) : EReal :=
  sqNorm X n + sqNorm Y p - two * inner X Y n p

/-- Clamp at zero, then take the root: the map that turns a squared distance into a distance. -/
def root (x : EReal) : EReal := Ideal.sqrt (max x (Ideal.ofBits .f32 0x00000000#32))

/-- The least squared distance from point `n` of `X` to a point of `Y`. -/
def rowMin (X Y : Cloud 8192) (n : Fin 8192) : EReal := Finset.univ.inf fun p : Fin 8192 => sqDist X Y n p

/-- The least squared distance from point `p` of `Y` to a point of `X`. -/
def colMin (X Y : Cloud 8192) (p : Fin 8192) : EReal := Finset.univ.inf fun n : Fin 8192 => sqDist X Y n p

/-- The number of points, 8192, as a binary32 pattern. -/
def count : EReal := Ideal.ofBits .f32 0x46000000#32

/-- A vector with one entry per point. -/
abbrev Row : Shape := ⟨1, ![8192]⟩

/-- The result: the mean rooted row minimum plus the mean rooted column minimum. -/
def loss (X Y : Cloud 8192) : EReal :=
  Ideal.div (∑ j : Row.Idx, root (rowMin X Y (j 0))) count + Ideal.div (∑ j : Row.Idx, root (colMin X Y (j 0))) count

/-! ## The order facts -/

/-- The binary32 pattern of +∞ is the top of the extended reals. -/
theorem ofBits_inf : Ideal.ofBits .f32 0x7F800000#32 = (⊤ : EReal) := by simp [Ideal.ofBits, Ideal.ieee]

/-- A fold of `min` from +∞ over a finite family is the family's infimum. -/
theorem fold_min_eq_inf {ι : Type} (s : Finset ι) (f : ι → EReal) :
    s.fold min (Ideal.ofBits .f32 0x7F800000#32) f = s.inf f := by
  rw [ofBits_inf]
  refine eq_of_forall_le_iff fun z => ?_
  rw [Finset.le_fold_min, Finset.le_inf_iff]
  exact ⟨fun h => h.2, fun h => ⟨le_top, h⟩⟩

/-- The root of the extended reals is monotone: negatives go to the bottom, +∞ to +∞, and the real root is monotone. -/
theorem sqrt_mono : Monotone Ideal.sqrt := by
  intro x y hxy
  induction x using EReal.rec with
  | bot => exact bot_le
  | top => rw [top_le_iff.mp hxy]
  | coe a =>
    induction y using EReal.rec with
    | bot => exact absurd hxy (by simp)
    | top => exact le_top
    | coe b =>
      have hab : a ≤ b := EReal.coe_le_coe_iff.mp hxy
      simp only [Ideal.sqrt_coe]
      by_cases ha : a < 0
      · rw [if_pos ha]; exact bot_le
      · rw [if_neg ha, if_neg (by linarith)]
        exact EReal.coe_le_coe_iff.mpr (Real.sqrt_le_sqrt hab)

/-- Clamping and rooting is monotone. -/
theorem root_mono : Monotone root := fun _ _ h => sqrt_mono (max_le_max h le_rfl)

/-- and sends +∞ to +∞. -/
theorem root_top : root ⊤ = ⊤ := by
  unfold root; rw [max_eq_left le_top]; rfl

/-- So it passes through a finite infimum: the root of the least squared distance is the least distance. -/
theorem root_inf {ι : Type} (s : Finset ι) (f : ι → EReal) : root (s.inf f) = s.inf fun i => root (f i) :=
  Finset.comp_inf_eq_inf_comp_of_is_total root root_mono root_top

/-! ## Minima over tiles

The 8192 indices of either cloud split into four tiles of 2048: index `2048·i + r` is entry `r` of tile `i`. -/

/-- Entry `r` of tile `i`. -/
def tile (i : Fin 4) (r : Fin 2048) : Fin 8192 := ⟨2048 * i.val + r.val, by have := i.isLt; have := r.isLt; omega⟩

/-- The least squared distance from point `n` of `X` to the points of `Y` in the first `b` tiles. -/
def rowMinUpTo (X Y : Cloud 8192) (n : Fin 8192) (b : ℕ) : EReal :=
  (Finset.univ.filter fun p : Fin 8192 => p.val < 2048 * b).inf fun p => sqDist X Y n p

/-- Over no tile the minimum is +∞. -/
theorem rowMinUpTo_zero (X Y : Cloud 8192) (n : Fin 8192) : rowMinUpTo X Y n 0 = ⊤ := by
  unfold rowMinUpTo
  rw [Finset.filter_false_of_mem (fun p _ => by omega), Finset.inf_empty]

/-- One more tile: the minimum so far against the minimum over the new tile. -/
theorem rowMinUpTo_succ (X Y : Cloud 8192) (n : Fin 8192) (b : Fin 4) :
    rowMinUpTo X Y n (b.val + 1) = min (rowMinUpTo X Y n b.val) (Finset.univ.inf fun q : Fin 2048 => sqDist X Y n (tile b q)) := by
  refine eq_of_forall_le_iff fun z => ?_
  unfold rowMinUpTo
  simp only [le_min_iff, Finset.le_inf_iff, Finset.mem_filter, Finset.mem_univ, true_and, true_implies]
  constructor
  · intro h
    refine ⟨fun p hp => h p (by omega), fun q => h (tile b q) ?_⟩
    show 2048 * b.val + q.val < 2048 * (b.val + 1)
    have := q.isLt; omega
  · rintro ⟨h1, h2⟩ p hp
    by_cases hlt : p.val < 2048 * b.val
    · exact h1 p hlt
    · have hq : p.val - 2048 * b.val < 2048 := by omega
      have e : p = tile b ⟨p.val - 2048 * b.val, hq⟩ := Fin.ext (by show p.val = 2048 * b.val + (p.val - 2048 * b.val); omega)
      rw [e]; exact h2 _

/-- Over all four tiles it is the row minimum. -/
theorem rowMinUpTo_four (X Y : Cloud 8192) (n : Fin 8192) : rowMinUpTo X Y n 4 = rowMin X Y n := by
  unfold rowMinUpTo rowMin
  rw [Finset.filter_true_of_mem (fun p _ => by have := p.isLt; omega)]

/-- The least squared distance from point `p` of `Y` to the points of `X` in tile `i`. -/
def colMinIn (X Y : Cloud 8192) (i : Fin 4) (p : Fin 8192) : EReal :=
  Finset.univ.inf fun r : Fin 2048 => sqDist X Y (tile i r) p

/-- The column minimum is the least of the four tiles' minima. -/
theorem colMin_eq (X Y : Cloud 8192) (p : Fin 8192) : colMin X Y p = Finset.univ.inf fun i : Fin 4 => colMinIn X Y i p := by
  refine eq_of_forall_le_iff fun z => ?_
  unfold colMin colMinIn
  simp only [Finset.le_inf_iff, Finset.mem_univ, true_implies]
  constructor
  · intro h i r; exact h _
  · intro h n
    have hn := n.isLt
    have hi : n.val / 2048 < 4 := by omega
    have hr : n.val % 2048 < 2048 := Nat.mod_lt _ (by decide)
    have e : n = tile ⟨n.val / 2048, hi⟩ ⟨n.val % 2048, hr⟩ := Fin.ext (by show n.val = 2048 * (n.val / 2048) + n.val % 2048; omega)
    rw [e]; exact h _ _

/-- A tile of the squared-distance matrix is the squared-distance matrix of the two tiles of points. -/
theorem sqDist_tile (X Y : Cloud 8192) (x y : Cloud 2048) (i j : Fin 4)
    (hx : ∀ (r : Fin 2048) (k : Fin 64), x (ix2 r k) = X (ix2 (tile i r) k))
    (hy : ∀ (q : Fin 2048) (k : Fin 64), y (ix2 q k) = Y (ix2 (tile j q) k)) (r q : Fin 2048) :
    sqDist x y r q = sqDist X Y (tile i r) (tile j q) := by
  unfold sqDist sqNorm inner
  simp only [hx, hy]

end Cert.Nearest

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.Payloads.lean ====
/-
  The body's arithmetic on one tile, read entry by entry over the extended reals: the tile of the squared-distance matrix
  of 2048 points of each cloud, its row minima folded into a running minimum, and its column minima.
-/
import proofs.«165098_j65635690217854_2_alg».proof.Proof.Gen.KernelIdeal.Skeleton
import proofs.«165098_j65635690217854_2_alg».proof.Proof.Spec
import proofs.«165098_j65635690217854_2_alg».proof.Proof.LibUnitAxes
import Idealize.ShloMosaic.Lib.ValueLayout
import Idealize.ShloMosaic.Lib.Pipeline.Value
import Idealize.ShloMosaic.PureOps.Reduce

noncomputable section

namespace Cert.KernelIdeal.Payload

open Cert.KernelIdeal Cert.KernelIdeal.Gen Idealize.ShloMosaic Idealize.ShloMosaic.ValueIdx Cert.Nearest
open scoped BigOperators

/-! ## The operations that move or combine entries, each read at explicit coordinates -/

/-- A sum along the 64 lanes of a [2048, 64] array, read at row `r`: the sum of that row's entries. -/
theorem laneSum_apply (v : FVec Ideal S2048x64 .f32) (r : Fin 2048) :
    multiReduction .add [1] S2048 v 0x00000000#32 reduces_S2048x64_S2048 (.inl rfl) rfl (ix1 r)
      = ∑ k : Fin 64, v (ix2 r k) := by
  refine (Ideal.multiReduction_add_single v 0x00000000#32 reduces_S2048x64_S2048 (.inl rfl) rfl (ix1 r)).trans ?_
  refine Finset.sum_congr rfl fun k _ => congrArg v ?_
  funext c
  match c with
  | ⟨0, _⟩ => exact Fin.ext rfl
  | ⟨1, _⟩ => exact Fin.ext rfl

/-- Casting a [2048] array to a [2048, 1] column moves no entry: the column at (r, u) is the array at r. -/
theorem castCol_apply {α : Type} (v : S2048.Idx → α) (h : S2048.ShapeCasts S2048x1) (r : Fin 2048) (u : Fin 1) :
    shapeCast S2048x1 v h (ix2 r u) = v (ix1 r) :=
  shapeCast_apply v h _ _ (by
    have hu : u.val = 0 := by omega
    rw [Shape.rowMajor_val_two, Shape.rowMajor_val_one]
    show r.val = r.val * 1 + u.val
    omega)

/-- The column of squared norms of a cloud's tile: entry (r, u) is the squared norm of point r. -/
theorem normCol_apply (x : FVec Ideal S2048x64 .f32) (r : Fin 2048) (u : Fin 1) :
    shapeCast S2048x1 (multiReduction .add [1] S2048 (mulf x x) 0x00000000#32 reduces_S2048x64_S2048 (.inl rfl) rfl)
        shapeCasts_S2048_S2048x1 (ix2 r u) = sqNorm x r :=
  (castCol_apply _ _ r u).trans (laneSum_apply (mulf x x) r)

/-- A minimum along one axis from a starting value, read at an index: the fold of `min` from that value over the axis's
    coordinates, the index with the coordinate put back in at the reduced axis. -/
theorem minRed_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum along the columns of a [2048, 2048] array from +∞, read at row `r`: the least entry of that row. -/
theorem rowMinRed_apply (v : FVec Ideal S2048x2048 .f32) (r : Fin 2048) :
    multiReduction .minimumf [1] S2048 v 0x7F800000#32 reduces_S2048x2048_S2048 (.inl rfl) rfl (ix1 r)
      = Finset.univ.inf fun q : Fin 2048 => v (ix2 r q) := by
  refine (minRed_single v 0x7F800000#32 reduces_S2048x2048_S2048 (.inl rfl) rfl (ix1 r)).trans ?_
  refine (fold_min_eq_inf (Finset.univ : Finset (Fin 2048)) _).trans ?_
  refine Finset.inf_congr rfl fun q _ => congrArg v ?_
  funext c
  match c with
  | ⟨0, _⟩ => exact Fin.ext rfl
  | ⟨1, _⟩ => exact Fin.ext rfl

/-- The minimum along the rows of a [2048, 2048] array from +∞, read at column `q`: the least entry of that column. -/
theorem colMinRed_apply (v : FVec Ideal S2048x2048 .f32) (q : Fin 2048) :
    multiReduction .minimumf [0] S2048 v 0x7F800000#32 reduces_S2048x2048_S2048_2 (.inl rfl) rfl (ix1 q)
      = Finset.univ.inf fun r : Fin 2048 => v (ix2 r q) := by
  refine (minRed_single v 0x7F800000#32 reduces_S2048x2048_S2048_2 (.inl rfl) rfl (ix1 q)).trans ?_
  refine (fold_min_eq_inf (Finset.univ : Finset (Fin 2048)) _).trans ?_
  refine Finset.inf_congr rfl fun r _ => congrArg v ?_
  funext c
  match c with
  | ⟨0, _⟩ => exact Fin.ext rfl
  | ⟨1, _⟩ => exact Fin.ext rfl

/-- The contraction record of the tile's product: both operands are contracted along their lane axis. -/
abbrev tileDot : DotDims S2048x64 S2048x64 S2048x2048 := dot_S2048x64_S2048x64_S2048x2048_1_1_0_0_n_n

/-- The left operand is read at the output's row … -/
theorem tileDot_lhs_0 (i : S2048x2048.Idx) (c : tileDot.contr.Idx) : (tileDot.lhsIdx i c 0).val = (i 0).val := by
  unfold DotDims.lhsIdx
  rw [dif_neg (show ¬(0 : Fin S2048x64.rank) ∈ tileDot.lhsBatch by decide),
    dif_pos (show (0 : Fin S2048x64.rank) ∈ tileDot.lhsNonContracting by decide)]
  rfl

/-- … and at the contraction position on its lane axis; -/
theorem tileDot_lhs_1 (i : S2048x2048.Idx) (c : tileDot.contr.Idx) : (tileDot.lhsIdx i c 1).val = (c ⟨0, by decide⟩).val :=
  tileDot.lhsIdx_val_of_single rfl i c

/-- the right operand is read at the output's column, as its own row, … -/
theorem tileDot_rhs_0 (i : S2048x2048.Idx) (c : tileDot.contr.Idx) : (tileDot.rhsIdx i c 0).val = (i 1).val := by
  unfold DotDims.rhsIdx
  rw [dif_neg (show ¬(0 : Fin S2048x64.rank) ∈ tileDot.rhsBatch by decide),
    dif_pos (show (0 : Fin S2048x64.rank) ∈ tileDot.rhsNonContracting by decide)]
  rfl

/-- … and at the contraction position on its lane axis. -/
theorem tileDot_rhs_1 (i : S2048x2048.Idx) (c : tileDot.contr.Idx) : (tileDot.rhsIdx i c 1).val = (c ⟨0, by decide⟩).val :=
  tileDot.rhsIdx_val_of_single rfl i c

/-- The product of one tile with the transpose of the other, from a zero accumulator: entry (r, q) is the inner product
    of point r of the first tile with point q of the second. -/
theorem dot_apply (x0 x1 : FVec Ideal S2048x64 .f32) (r q : Fin 2048) :
    matmul tileDot (some .fp32) x0 x1 (constant S2048x2048 .f32 0x00000000#32) (ix2 r q) = Cert.Nearest.inner x0 x1 r q := by
  refine (Ideal.matmul_constant_zero_apply tileDot (some .fp32) x0 x1 (ix2 r q)).trans ?_
  unfold Cert.Nearest.inner
  rw [← Equiv.sum_comp (ValueIdx.contrEquiv1 tileDot 64 rfl rfl).symm]
  refine Finset.sum_congr rfl fun k _ => ?_
  have hk := ValueIdx.contrEquiv1_symm_val tileDot 64 rfl rfl k
  have el : tileDot.lhsIdx (ix2 r q) ((ValueIdx.contrEquiv1 tileDot 64 rfl rfl).symm k) = ix2 r k := funext fun a => Fin.ext (by
    match a with
    | ⟨0, _⟩ => exact tileDot_lhs_0 _ _
    | ⟨1, _⟩ => exact (tileDot_lhs_1 _ _).trans hk)
  have er : tileDot.rhsIdx (ix2 r q) ((ValueIdx.contrEquiv1 tileDot 64 rfl rfl).symm k) = ix2 q k := funext fun a => Fin.ext (by
    match a with
    | ⟨0, _⟩ => exact tileDot_rhs_0 _ _
    | ⟨1, _⟩ => exact (tileDot_rhs_1 _ _).trans hk)
  rw [el, er]

/-! ## The four payloads -/

/-- The running minimum starts from +∞ everywhere. -/
theorem pay1_apply (y : S2048x1.Idx) : k0_pay1 (F := Ideal) y = (⊤ : EReal) := by
  unfold k0_pay1
  refine (congrFun (shapeCast_self _ shapeCasts_S2048x1_S2048x1) y).trans ?_
  exact ofBits_inf

/-- Entry (r, q) of the tile is the squared distance between point r of the first tile and point q of the second:
    the column of squared norms spread along the rows, plus the row of squared norms spread along the columns, minus
    twice the matrix of inner products. -/
theorem pay2_apply (x0 x1 : Vec Ideal S2048x64 .f32) (r q : Fin 2048) :
    k0_pay2 (F := Ideal) x0 x1 (ix2 r q) = sqDist x0 x1 r q := by
  unfold k0_pay2 sqDist
  refine congrArg₂ (· - ·) (congrArg₂ (· + ·) ?_ ?_) (congrArg₂ (· * ·) rfl ?_)
  · exact (Cert.LibUnitAxes.broadcastTo_a1_ab_apply _ broadcasts_S2048x1_S2048x2048 r q).trans (normCol_apply x0 r 0)
  · refine (broadcastTo_1b_ab_apply _ broadcasts_S1x2048_S2048x2048 r q).trans ?_
    exact (transpose_ix2_apply _ transposes_S2048x1_p1_0_S1x2048 (0 : Fin 1) q).trans (normCol_apply x1 q 0)
  · exact dot_apply x0 x1 r q

/-- The running minimum of row r after this tile: what it was, against the least squared distance from point r of the
    first tile to a point of the second. -/
theorem pay3_apply (x0 x1 : Vec Ideal S2048x64 .f32) (acc : Vec Ideal S2048x1 .f32) (r : Fin 2048) :
    k0_pay3 (F := Ideal) x0 x1 acc (ix2 r (0 : Fin 1))
      = min (acc (ix2 r (0 : Fin 1))) (Finset.univ.inf fun q : Fin 2048 => sqDist x0 x1 r q) := by
  unfold k0_pay3
  refine (congrFun (shapeCast_self _ shapeCasts_S2048x1_S2048x1) (ix2 r (0 : Fin 1))).trans ?_
  refine congrArg₂ min rfl ?_
  refine (castCol_apply _ shapeCasts_S2048_S2048x1 r (0 : Fin 1)).trans ?_
  refine (rowMinRed_apply (k0_pay2 x0 x1) r).trans ?_
  exact Finset.inf_congr rfl fun q _ => pay2_apply x0 x1 r q

/-- The tile's column minima: entry q is the least squared distance from point q of the second tile to a point of the
    first. The two casts that add unit axes move no entry. -/
theorem pay4_apply (x0 x1 : Vec Ideal S2048x64 .f32) (q : Fin 2048) :
    k0_pay4 (F := Ideal) x0 x1 (ix3 (0 : Fin 1) (0 : Fin 1) q) = Finset.univ.inf fun r : Fin 2048 => sqDist x0 x1 r q := by
  unfold k0_pay4
  refine (shapeCast_ab_1ab_apply _ shapeCasts_S1x2048_S1x1x2048 (0 : Fin 1) (0 : Fin 1) q).trans ?_
  refine (shapeCast_a_1a_apply _ shapeCasts_S2048_S1x2048 (0 : Fin 1) q).trans ?_
  refine (colMinRed_apply (k0_pay2 x0 x1) q).trans ?_
  exact Finset.inf_congr rfl fun r _ => pay2_apply x0 x1 r q

end Cert.KernelIdeal.Payload

end
-- ==== Proof.Invariant.lean ====
/-
  What the grid's buffers hold after each visit.

  The grid visits the 4 × 4 tiles of the squared-distance matrix row of tiles by row of tiles: visit `t` is tile
  (t / 4, t % 4). The block of the first cloud it sees is tile `t / 4` of the cloud's points, the block of the second
  tile `t % 4`, so the tile of squared distances it forms is that tile of the whole matrix. By induction on the visit,
  the running column of minima holds, for each of the 2048 rows of the current row of tiles, the least squared distance
  over the columns of the tiles visited so far in that row of tiles: +∞ folded with the first tile at the start of a row of
  tiles, the previous visit's column folded with the new tile afterwards. The column output of a visit holds the tile's
  column minima, and at the last tile of a row of tiles the row output holds the finished row minima.
-/
import proofs.«165098_j65635690217854_2_alg».proof.Proof.Pieces
import proofs.«165098_j65635690217854_2_alg».proof.Proof.Payloads
import proofs.«165098_j65635690217854_2_alg».proof.Proof.Spec

noncomputable section

open Idealize.ShloMosaic Idealize.ShloMosaic.TcCoe Idealize.SL.Sem Idealize.ShloMosaic.ValueIdx

namespace Cert.KernelIdeal.Inv

open Cert.KernelIdeal Cert.KernelIdeal.Gen Cert.Nearest

variable (m : (ℓ : Loc nD τ sig) → Buf (Elt Ideal) ℓ)

/-- The first cloud, as core `c` finds it. -/
abbrev X (c : Dev nD) : Cloud 8192 := m ((c.tc : Thread nD τ).loc main_arg0)
/-- The second cloud. -/
abbrev Y (c : Dev nD) : Cloud 8192 := m ((c.tc : Thread nD τ).loc main_arg1)

theorem hN : cfg0.N = 16 := N_0

/-- Visit `n` is in row of tiles `n / 4` … -/
def rowTile (n : ℕ) (h : n < cfg0.N) : Fin 4 := ⟨n / 4, by have := hN; omega⟩
/-- … and column of tiles `n % 4`. -/
def colTile (n : ℕ) (_ : n < cfg0.N) : Fin 4 := ⟨n % 4, Nat.mod_lt _ (by decide)⟩

/-- The windows' block indices, decided over the grid. -/
theorem idx_facts : ∀ t : Fin cfg0.N, win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 3) = t.val / 4 ∧ win0_3.index t (1 : Fin 3) = 0 ∧ win0_3.index t (2 : Fin 3) = t.val % 4 :=
  (by decide +kernel : ∀ t : Fin grid0.N, _)

/-- The block of the first cloud at visit `t` is tile `t / 4` of its points. -/
theorem iblk0_apply (c : Dev nD) (t : Fin cfg0.N) (r : Fin 2048) (k : Fin 64) :
    (iblk m c 0 t : Vec Ideal S2048x64 .f32) (ix2 r k) = X m c (ix2 (tile (rowTile t.val t.isLt) r) k) := by
  obtain ⟨e0, e1, -⟩ := idx_facts t
  unfold iblk
  rw [View.read_apply]
  show V m c main_arg0 _ = m ((c.tc : Thread nD τ).loc main_arg0) _
  unfold V
  congr 1
  funext a
  apply Fin.ext
  match a with
  | ⟨0, _⟩ => show win0_0.index t (0 : Fin 2) * 2048 + 1 * r.val = 2048 * (t.val / 4) + r.val; rw [e0]; omega
  | ⟨1, _⟩ => show win0_0.index t (1 : Fin 2) * 64 + 1 * k.val = k.val; rw [e1]; omega

/-- The block of the second cloud at visit `t` is tile `t % 4` of its points. -/
theorem iblk1_apply (c : Dev nD) (t : Fin cfg0.N) (q : Fin 2048) (k : Fin 64) :
    (iblk m c 1 t : Vec Ideal S2048x64 .f32) (ix2 q k) = Y m c (ix2 (tile (colTile t.val t.isLt) q) k) := by
  obtain ⟨-, -, e0, e1, -⟩ := idx_facts t
  unfold iblk
  rw [View.read_apply]
  show V m c main_arg1 _ = m ((c.tc : Thread nD τ).loc main_arg1) _
  unfold V
  congr 1
  funext a
  apply Fin.ext
  match a with
  | ⟨0, _⟩ => show win0_1.index t (0 : Fin 2) * 2048 + 1 * q.val = 2048 * (t.val % 4) + q.val; rw [e0]; omega
  | ⟨1, _⟩ => show win0_1.index t (1 : Fin 2) * 64 + 1 * k.val = k.val; rw [e1]; omega

/-- So the squared distances the visit forms are tile (t / 4, t % 4) of the whole matrix. -/
theorem tileDist (c : Dev nD) (t : Fin cfg0.N) (r q : Fin 2048) :
    sqDist (iblk m c 0 t : Vec Ideal S2048x64 .f32) (iblk m c 1 t : Vec Ideal S2048x64 .f32) r q
      = sqDist (X m c) (Y m c) (tile (rowTile t.val t.isLt) r) (tile (colTile t.val t.isLt) q) :=
  sqDist_tile (X m c) (Y m c) _ _ _ _ (iblk0_apply m c t) (iblk1_apply m c t) r q

/-- One fold of the running minima: the old column against the visit's row minima. -/
theorem fold_step (c : Dev nD) (t : Fin cfg0.N) (acc : Vec Ideal S2048x1 .f32) (r : Fin 2048) :
    k0_pay3 (F := Ideal) (iblk m c 0 t) (iblk m c 1 t) acc (ix2 r (0 : Fin 1))
      = min (acc (ix2 r (0 : Fin 1)))
          (Finset.univ.inf fun q : Fin 2048 => sqDist (X m c) (Y m c) (tile (rowTile t.val t.isLt) r) (tile (colTile t.val t.isLt) q)) := by
  refine (Payload.pay3_apply (iblk m c 0 t) (iblk m c 1 t) acc r).trans ?_
  exact congrArg (min (acc (ix2 r (0 : Fin 1)))) (Finset.inf_congr rfl fun q _ => tileDist m c t r q)

/-- The visit's column minima. -/
theorem col_step (c : Dev nD) (t : Fin cfg0.N) (q : Fin 2048) :
    k0_pay4 (F := Ideal) (iblk m c 0 t) (iblk m c 1 t) (ix3 (0 : Fin 1) (0 : Fin 1) q)
      = colMinIn (X m c) (Y m c) (rowTile t.val t.isLt) (tile (colTile t.val t.isLt) q) := by
  refine (Payload.pay4_apply (iblk m c 0 t) (iblk m c 1 t) q).trans ?_
  exact Finset.inf_congr rfl fun r _ => tileDist m c t r q

/-- Over the first tile alone. -/
theorem rowMinUpTo_one (A B : Cloud 8192) (n : Fin 8192) :
    rowMinUpTo A B n 1 = Finset.univ.inf fun q : Fin 2048 => sqDist A B n (tile 0 q) := by
  have h := rowMinUpTo_succ A B n (0 : Fin 4)
  have hz : rowMinUpTo A B n (0 : Fin 4).val = ⊤ := rowMinUpTo_zero A B n
  rw [hz, min_eq_right le_top] at h
  exact h

/-- What the carried column is at each visit: the reset-and-fold, or the fold of the previous visit's column. -/
theorem carried_A (c : Dev nD) (t : Fin cfg0.N) (h0 : t.val % 4 = 0) :
    (outsAt0 m c t.val t.isLt).2.2 = k0_pay3 (F := Ideal) (iblk m c 0 t) (iblk m c 1 t) (k0_pay1 (F := Ideal)) := by
  have h1 : ¬t.val % 4 = 3 := by omega
  rw [outsAt0_A m c t h0 h1]
  dsimp only
  exact Pieces.sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

theorem carried_BC (c : Dev nD) (t : Fin cfg0.N) (h0 : ¬t.val % 4 = 0) :
    (outsAt0 m c t.val t.isLt).2.2 = k0_pay3 (F := Ideal) (iblk m c 0 t) (iblk m c 1 t)
      (outsAt0 m c (t.val - 1) (Nat.lt_of_le_of_lt (Nat.sub_le _ _) t.isLt)).2.2 := by
  by_cases h1 : t.val % 4 = 3
  · rw [outsAt0_C m c t h0 h1]
    dsimp only
    exact Pieces.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
  · rw [outsAt0_B m c t h0 h1]
    dsimp only
    exact Pieces.sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- THE RUNNING MINIMA: after visit `n`, row `r` of the carried column is the least squared distance from point
    `r` of row of tiles `n / 4` to the points of the second cloud in the first `n % 4 + 1` tiles. -/
theorem carried_eq (c : Dev nD) : ∀ (n : ℕ) (h : n < cfg0.N) (r : Fin 2048),
    (outsAt0 m c n h).2.2 (ix2 r (0 : Fin 1)) = rowMinUpTo (X m c) (Y m c) (tile (rowTile n h) r) (n % 4 + 1) := by
  intro n
  induction n with
  | zero =>
    intro h r
    refine (congrFun (carried_A m c ⟨0, h⟩ rfl) _).trans ?_
    refine (fold_step m c ⟨0, h⟩ _ r).trans ?_
    rw [Payload.pay1_apply, min_eq_right le_top]
    exact (rowMinUpTo_one _ _ _).symm
  | succ n ih =>
    intro h r
    by_cases h0 : (n + 1) % 4 = 0
    · refine (congrFun (carried_A m c ⟨n + 1, h⟩ h0) _).trans ?_
      refine (fold_step m c ⟨n + 1, h⟩ _ r).trans ?_
      rw [Payload.pay1_apply, min_eq_right le_top]
      have e : colTile (n + 1) h = 0 := Fin.ext h0
      have e1 : (n + 1) % 4 + 1 = 1 := by omega
      show (Finset.univ.inf fun q : Fin 2048 => sqDist (X m c) (Y m c) (tile (rowTile (n + 1) h) r) (tile (colTile (n + 1) h) q))
        = rowMinUpTo (X m c) (Y m c) (tile (rowTile (n + 1) h) r) ((n + 1) % 4 + 1)
      rw [e, e1, rowMinUpTo_one]
    · have hlt : n < cfg0.N := Nat.lt_of_succ_lt h
      refine (congrFun (carried_BC m c ⟨n + 1, h⟩ h0) _).trans ?_
      refine (fold_step m c ⟨n + 1, h⟩ _ r).trans ?_
      show min ((outsAt0 m c n hlt).2.2 (ix2 r (0 : Fin 1)))
          (Finset.univ.inf fun q : Fin 2048 => sqDist (X m c) (Y m c) (tile (rowTile (n + 1) h) r) (tile (colTile (n + 1) h) q))
        = rowMinUpTo (X m c) (Y m c) (tile (rowTile (n + 1) h) r) ((n + 1) % 4 + 1)
      rw [ih hlt r]
      have er : rowTile n hlt = rowTile (n + 1) h := Fin.ext (by show n / 4 = (n + 1) / 4; omega)
      have en : n % 4 + 1 = (colTile (n + 1) h).val := by show n % 4 + 1 = (n + 1) % 4; omega
      have eb : (n + 1) % 4 + 1 = (colTile (n + 1) h).val + 1 := rfl
      rw [eb, rowMinUpTo_succ, er, en]

/-- At the last tile of a row of tiles the row output holds what the carried column holds. -/
theorem rowOut_carried (c : Dev nD) (t : Fin cfg0.N) (h3 : t.val % 4 = 3) :
    (outsAt0 m c t.val t.isLt).1 = k0_pay3 (F := Ideal) (iblk m c 0 t) (iblk m c 1 t) (outsAt0 m c (t.val - 1) (Nat.lt_of_le_of_lt (Nat.sub_le _ _) t.isLt)).2.2 := by
  have h0 : ¬t.val % 4 = 0 := by omega
  have h1 := h3
  rw [outsAt0_C m c t h0 h1]
  dsimp only
  exact Pieces.out2_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2

/-- So it holds the finished row minima. -/
theorem rowOut_eq (c : Dev nD) (t : Fin cfg0.N) (h3 : t.val % 4 = 3) (r : Fin 2048) :
    (outsAt0 m c t.val t.isLt).1 (ix2 r (0 : Fin 1)) = rowMin (X m c) (Y m c) (tile (rowTile t.val t.isLt) r) := by
  have h0 : ¬t.val % 4 = 0 := by omega
  have e : (outsAt0 m c t.val t.isLt).1 = (outsAt0 m c t.val t.isLt).2.2 :=
    (rowOut_carried m c t h3).trans (carried_BC m c t h0).symm
  rw [e, carried_eq m c t.val t.isLt r, h3]
  exact rowMinUpTo_four _ _ _

/-- Every visit's column output is the visit's column minima … -/
theorem colOut_pay (c : Dev nD) (t : Fin cfg0.N) :
    (outsAt0 m c t.val t.isLt).2.1 = k0_pay4 (F := Ideal) (iblk m c 0 t) (iblk m c 1 t) := by
  by_cases h0 : t.val % 4 = 0
  · have h1 : ¬t.val % 4 = 3 := by omega
    rw [outsAt0_A m c t h0 h1]
    dsimp only
    exact Pieces.out3_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 4 = 3
    · rw [outsAt0_C m c t h0 h1]
      dsimp only
      exact Pieces.out3_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]
      dsimp only
      exact Pieces.out3_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- … which are the tile's column minima of the whole matrix. -/
theorem colOut_eq (c : Dev nD) (t : Fin cfg0.N) (q : Fin 2048) :
    (outsAt0 m c t.val t.isLt).2.1 (ix3 (0 : Fin 1) (0 : Fin 1) q)
      = colMinIn (X m c) (Y m c) (rowTile t.val t.isLt) (tile (colTile t.val t.isLt) q) :=
  (congrFun (colOut_pay m c t) _).trans (col_step m c t q)

end Cert.KernelIdeal.Inv

end
-- ==== Proof.Arrays.lean ====
/-
  The two arrays the grid leaves behind, whole.

  The row output has one block of 2048 rows per row of tiles, written back once, after the last tile of that row of
  tiles, when it holds the finished row minima; the four blocks tile the column of 8192 row minima. The column output
  has one block of 2048 entries per visit, block (t / 4, t % 4) at visit `t`, holding the tile's column minima; the
  sixteen blocks tile the four rows of 8192 partial column minima. A block's element `x` sits in the array at block index
  times block size plus `x` on every axis, so each written block is the restriction of one function of the array index,
  and since the blocks cover the arrays the arrays end at those functions.
-/
import proofs.«165098_j65635690217854_2_alg».proof.Proof.Invariant
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.Nearest Cert.KernelIdeal.Inv

variable (m : (ℓ : Loc nD τ sig) → Buf (Elt Ideal) ℓ)

/-- The column of row minima: entry (n, 0) is the least squared distance from point `n` of the first cloud to the second. -/
def rowMins (c : Dev nD) : S8192x1.Idx → EReal := fun y => rowMin (X m c) (Y m c) ⟨(y 0).val, (y 0).isLt⟩

/-- The partial column minima: entry (i, 0, p) is the least squared distance from point `p` of the second cloud to the
    points of the first cloud in tile `i`. -/
def colMinsByTile (c : Dev nD) : S4x1x8192.Idx → EReal := fun y =>
  colMinIn (X m c) (Y m c) ⟨(y 0).val, (y 0).isLt⟩ ⟨(y 2).val, (y 2).isLt⟩

/-! ## The row output -/

/-- What is written back after the last tile of a row of tiles is that row of tiles' block of the row minima. -/
theorem flushed2_eq (c : Dev nD) (t : Fin cfg0.N) (hf : (cfg0.win 2).flush t = true) :
    (dats m 0 c).flushed 2 t = ((cfg0.win 2).blk t).view.read (Elt Ideal) (rowMins m c) := by
  have h3 : t.val % 4 = 3 := (flush0_2 t).mp hf
  obtain ⟨-, -, -, -, e0, e1, -⟩ := idx_facts t
  show (cfg0.win 2).cut (grid0.coords t) ((dats m 0 c).after 2 t) = _
  rw [after0_2]
  funext j
  show (outsAt0 m c t.val t.isLt).1 j = rowMins m c (((cfg0.win 2).blk t).view.emb j)
  have hj0 : (j 0).val < 2048 := (j 0).isLt
  have hj1 : (j 1).val < 1 := (j 1).isLt
  have hj : j = ix2 (⟨(j 0).val, hj0⟩ : Fin 2048) (0 : Fin 1) := by
    funext a
    match a with
    | ⟨0, _⟩ => rfl
    | ⟨1, _⟩ => exact Fin.ext (by show (j 1).val = 0; omega)
  refine (congrArg (outsAt0 m c t.val t.isLt).1 hj).trans ((rowOut_eq m c t h3 _).trans ?_)
  unfold rowMins
  refine congrArg (rowMin (X m c) (Y m c)) (Fin.ext ?_)
  show 2048 * (t.val / 4) + (j 0).val = win0_2.index t (0 : Fin 2) * 2048 + 1 * (j 0).val
  rw [e0]; omega

/-- An index of the row output is in visit `t`'s block iff each coordinate is in the block's range. -/
theorem mem_blk2 (t : Fin cfg0.N) (i : S8192x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v0_0).slice (win0_2.rect t)).set ↔ _
  rw [View.set_slice_whole, Rect.mem_set_unit]
  exact Iff.rfl

/-- Row `n` is written back at the last visit of row of tiles `n / 2048`. -/
theorem cover2 (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN := hN
  obtain ⟨t, ht⟩ : ∃ t : Fin cfg0.N, t.val = 4 * ((i 0).val / 2048) + 3 := ⟨⟨4 * ((i 0).val / 2048) + 3, by rw [hN]; omega⟩, rfl⟩
  obtain ⟨-, -, -, -, e0, e1, -⟩ := idx_facts t
  refine ⟨t, (flush0_2 t).mpr (by rw [ht]; omega), ?_⟩
  rw [mem_blk2]
  intro a
  match a with
  | ⟨0, _⟩ =>
    show win0_2.index t (0 : Fin 2) * 2048 ≤ (i 0).val ∧ (i 0).val < win0_2.index t (0 : Fin 2) * 2048 + 2048
    rw [e0, ht]; omega
  | ⟨1, _⟩ =>
    show win0_2.index t (1 : Fin 2) * 1 ≤ (i 1).val ∧ (i 1).val < win0_2.index t (1 : Fin 2) * 1 + 1
    rw [e1]; omega

/-- The row output ends at the column of row minima. -/
theorem final2 (c : Dev nD) : (dats m 0 c).arrAt 2 cfg0.N = rowMins m c :=
  (dats m 0 c).arrAt_eq_of_cover 2 (rowMins m c) (flushed2_eq m c) cover2

/-! ## The column output -/

/-- What visit `t` writes back is block (t / 4, t % 4) of the partial column minima. -/
theorem flushed3_eq (c : Dev nD) (t : Fin cfg0.N) :
    (dats m 0 c).flushed 3 t = ((cfg0.win 3).blk t).view.read (Elt Ideal) (colMinsByTile m c) := by
  obtain ⟨-, -, -, -, -, -, e0, e1, e2⟩ := idx_facts t
  show (cfg0.win 3).cut (grid0.coords t) ((dats m 0 c).after 3 t) = _
  rw [after0_3]
  funext j
  show (outsAt0 m c t.val t.isLt).2.1 j = colMinsByTile m c (((cfg0.win 3).blk t).view.emb j)
  have hj0 : (j 0).val < 1 := (j 0).isLt
  have hj1 : (j 1).val < 1 := (j 1).isLt
  have hj2 : (j 2).val < 2048 := (j 2).isLt
  have hj : j = ix3 (0 : Fin 1) (0 : Fin 1) (⟨(j 2).val, hj2⟩ : Fin 2048) := by
    funext a
    match a with
    | ⟨0, _⟩ => exact Fin.ext (by show (j 0).val = 0; omega)
    | ⟨1, _⟩ => exact Fin.ext (by show (j 1).val = 0; omega)
    | ⟨2, _⟩ => rfl
  refine (congrArg (outsAt0 m c t.val t.isLt).2.1 hj).trans ((colOut_eq m c t _).trans ?_)
  unfold colMinsByTile
  have ea : rowTile t.val t.isLt = ⟨((((cfg0.win 3).blk t).view.emb j) 0).val, ((((cfg0.win 3).blk t).view.emb j) 0).isLt⟩ :=
    Fin.ext (by show t.val / 4 = win0_3.index t (0 : Fin 3) * 1 + 1 * (j 0).val; rw [e0]; omega)
  have eb : tile (colTile t.val t.isLt) ⟨(j 2).val, hj2⟩ = ⟨((((cfg0.win 3).blk t).view.emb j) 2).val, ((((cfg0.win 3).blk t).view.emb j) 2).isLt⟩ :=
    Fin.ext (by show 2048 * (t.val % 4) + (j 2).val = win0_3.index t (2 : Fin 3) * 2048 + 1 * (j 2).val; rw [e2]; omega)
  rw [ea, eb]

/-- An index of the column output is in visit `t`'s block iff each coordinate is in the block's range. -/
theorem mem_blk3 (t : Fin cfg0.N) (i : S4x1x8192.Idx) :
    i ∈ ((cfg0.win 3).blk t).view.set ↔ ∀ a : Fin 3, win0_3.index t a * S1x1x2048.size a ≤ (i a).val ∧ (i a).val < win0_3.index t a * S1x1x2048.size a + S1x1x2048.size a := by
  show i ∈ ((View.whole main_v0_1).slice (win0_3.rect t)).set ↔ _
  rw [View.set_slice_whole, Rect.mem_set_unit]
  exact Iff.rfl

/-- Entry (i, 0, p) is written back at the visit of tile (i, p / 2048). -/
theorem cover3 (i : S4x1x8192.Idx) : ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 8192 := (i 2).isLt
  have hN := hN
  obtain ⟨t, ht⟩ : ∃ t : Fin cfg0.N, t.val = 4 * (i 0).val + (i 2).val / 2048 := ⟨⟨4 * (i 0).val + (i 2).val / 2048, by rw [hN]; omega⟩, rfl⟩
  obtain ⟨-, -, -, -, -, -, e0, e1, e2⟩ := idx_facts t
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    rw [e0, ht]; omega
  | ⟨1, _⟩ =>
    show win0_3.index t (1 : Fin 3) * 1 ≤ (i 1).val ∧ (i 1).val < win0_3.index t (1 : Fin 3) * 1 + 1
    rw [e1]; omega
  | ⟨2, _⟩ =>
    show win0_3.index t (2 : Fin 3) * 2048 ≤ (i 2).val ∧ (i 2).val < win0_3.index t (2 : Fin 3) * 2048 + 2048
    rw [e2, ht]; omega

/-- The column output ends at the partial column minima. -/
theorem final3 (c : Dev nD) : (dats m 0 c).arrAt 3 cfg0.N = colMinsByTile m c :=
  (dats m 0 c).arrAt_eq_of_cover 3 (colMinsByTile m c) (fun t _ => flushed3_eq m c t) cover3

end Cert.KernelIdeal.Arrays

end
-- ==== Proof.TailDef.lean ====
/-
  What the program does with the two arrays its grid leaves behind, as one function.

  The grid leaves a column of 8192 row minima of squared distances and four rows of 8192 partial column minima (one row
  per tile of 2048 points of the first cloud). The remaining lines clamp the row minima at zero, root them and average
  them; take, column by column, the least of the four partial minima, clamp, root and average those; and add the two
  averages. This module only names that composition, so that the run can be stated with it and its value read elsewhere.
-/
import proofs.«165098_j65635690217854_2_alg».proof.Proof.Gen.KernelIdeal

noncomputable section

namespace Cert.KernelIdeal.Tail

open Cert.KernelIdeal Cert.KernelIdeal.Gen Idealize.ShloMosaic

variable {F : FTy → Type} [FloatOps F]

/-- The mean of the clamped, rooted entries of a vector of 8192 squared distances. -/
def meanRoot (v : (⟨S8192, .f32⟩ : BufTy).Contents (Elt F)) : (⟨S_, .f32⟩ : BufTy).Contents (Elt F) :=
  Host.divf (Host.reduceAdd (Host.sqrt (maximumf v (broadcastInDim S8192 ![] bcast_S_S8192 (constant S_ .f32 0x00000000#32))))
    (constant S_ .f32 0x00000000#32) reducesTo_S8192_S_d0 h_S_) (constant S_ .f32 0x46000000#32)

/-- The lines after the grid, applied to the column of row minima `A2` and the four rows of partial column minima `A3`. -/
def tailFn (A2 : (⟨S8192x1, .f32⟩ : BufTy).Contents (Elt F)) (A3 : (⟨S4x1x8192, .f32⟩ : BufTy).Contents (Elt F)) :
    (⟨S_, .f32⟩ : BufTy).Contents (Elt F) :=
  addf (meanRoot (shapeCast S8192 A2 shapeCasts_S8192x1_S8192))
    (meanRoot (Host.reduce FloatOps.minimumf (shapeCast S4x8192 A3 shapeCasts_S4x1x8192_S4x8192)
      (constant S_ .f32 0x7F800000#32) reducesTo_S4x8192_S8192_d0 h_S_))

end Cert.KernelIdeal.Tail

end
-- ==== Proof.TailLoss.lean ====
/-
  The lines after the grid, read: fed the row minima and the per-tile column minima of the squared-distance matrix, they
  return the mean rooted row minimum plus the mean rooted column minimum. The least of the four per-tile minima of a
  column is the column's minimum over all 8192 points, because the four tiles exhaust the points.
-/
import proofs.«165098_j65635690217854_2_alg».proof.Proof.TailDef
import proofs.«165098_j65635690217854_2_alg».proof.Proof.Spec
import proofs.«165098_j65635690217854_2_alg».proof.Proof.LibUnitAxes
import Idealize.ShloMosaic.PureOps.Reduce
import Idealize.ShloMosaic.PureOps.Ideal.Laws
import Idealize.ShloMosaic.Lib.Pipeline.Value
import Idealize.ShloMosaic.Lib.ValueIdx

noncomputable section

namespace Cert.KernelIdeal.Tail

open Cert.KernelIdeal Cert.KernelIdeal.Gen Idealize.ShloMosaic Idealize.ShloMosaic.ValueIdx Cert.Nearest
open scoped BigOperators

/-- The mean of the clamped, rooted entries, read at the extended reals: clamp at zero and root each entry, add them all
    up from zero, divide by the number of points. -/
theorem meanRoot_apply (v : (⟨S8192, .f32⟩ : BufTy).Contents (Elt Ideal)) (i : S_.Idx) :
    meanRoot (F := Ideal) v i = Ideal.div (∑ j : S8192.Idx, root (v j)) count := by
  unfold meanRoot
  generalize hy : Host.sqrt (F := Ideal) (maximumf v (broadcastInDim S8192 ![] bcast_S_S8192 (constant S_ .f32 0x00000000#32))) = y
  have hsum : Host.reduceAdd (F := Ideal) y (constant S_ .f32 0x00000000#32) reducesTo_S8192_S_d0 h_S_ i = ∑ j : S8192.Idx, y j := by
    simp only [Host.reduceAdd, Ideal.hostReduceAdd_def]
    rw [Ideal.hostReduceAdd_total reducesTo_S8192_S_d0 (fun b => b.elim0) y _ i]
    rw [constant_apply, Ideal.ofBits_zero_f32, zero_add]
  show Ideal.div (Host.reduceAdd (F := Ideal) y (constant S_ .f32 0x00000000#32) reducesTo_S8192_S_d0 h_S_ i)
      (Ideal.ofBits .f32 0x46000000#32) = _
  rw [hsum]
  subst hy
  have hterm : ∀ j : S8192.Idx,
      Host.sqrt (F := Ideal) (maximumf v (broadcastInDim S8192 ![] bcast_S_S8192 (constant S_ .f32 0x00000000#32))) j
        = root (v j) := by
    intro j
    show Ideal.sqrt (max (v j) (broadcastInDim S8192 ![] bcast_S_S8192 (constant (F := Ideal) S_ .f32 0x00000000#32) j)) = root (v j)
    rw [Cert.LibUnitAxes.broadcastInDim_scalar_apply]
    rfl
  rw [Finset.sum_congr rfl fun j _ => hterm j]
  rfl

/-- Reshaping the column [8192, 1] to the vector [8192] moves no element: entry n of the vector is entry (n, 0) of the
    column, both at row-major position n. -/
theorem cast_col_apply (A2 : (⟨S8192x1, .f32⟩ : BufTy).Contents (Elt Ideal)) (n : Fin 8192) :
    shapeCast S8192 A2 shapeCasts_S8192x1_S8192 (ix1 n) = A2 (ix2 n (0 : Fin 1)) := by
  refine shapeCast_apply A2 shapeCasts_S8192x1_S8192 (ix1 n) (ix2 n (0 : Fin 1)) ?_
  rw [Shape.rowMajor_val_two, Shape.rowMajor_val_one]
  show n.val * 1 + 0 = n.val
  omega

/-- Reshaping [4, 1, 8192] to [4, 8192] moves no element: entry (i, p) of the result is entry (i, 0, p) of the operand,
    both at row-major position 8192·i + p. -/
theorem cast_tiles_apply (A3 : (⟨S4x1x8192, .f32⟩ : BufTy).Contents (Elt Ideal)) (i : Fin 4) (p : Fin 8192) :
    shapeCast S4x8192 A3 shapeCasts_S4x1x8192_S4x8192 (ix2 i p) = A3 (ix3 i (0 : Fin 1) p) := by
  refine shapeCast_apply A3 shapeCasts_S4x1x8192_S4x8192 (ix2 i p) (ix3 i (0 : Fin 1) p) ?_
  rw [Shape.rowMajor_val_three, Shape.rowMajor_val_two]
  show (i.val * 1 + 0) * 8192 + p.val = i.val * 8192 + p.val
  omega

/-- The minimum over the four rows, from +∞: at column p it is the infimum of the four entries of that column. -/
theorem minRows_apply (x : (⟨S4x8192, .f32⟩ : BufTy).Contents (Elt Ideal)) (p : Fin 8192) :
    Host.reduce FloatOps.minimumf x (constant (F := Ideal) S_ .f32 0x7F800000#32) reducesTo_S4x8192_S8192_d0 h_S_ (ix1 p)
      = Finset.univ.inf fun i : Fin 4 => x (ix2 i p) := by
  have h : S4x8192.Reduces [0] S8192 := by decide
  refine (Host.reduce_eq_fold_single (FloatOps.minimumf (F := Ideal) (φ := .f32)) x
    (constant (F := Ideal) S_ .f32 0x7F800000#32) reducesTo_S4x8192_S8192_d0 h h_S_ (ix1 p)).trans ?_
  have hf : (x ∘ h.lift (ix1 p)) = fun k : Fin 4 => x (ix2 k p) :=
    funext fun k => congrArg x (by funext c; apply Fin.ext; fin_cases c <;> rfl)
  refine Eq.trans ?_ (fold_min_eq_inf Finset.univ fun k : Fin 4 => x (ix2 k p))
  exact congrArg (fun f => Finset.fold min (Ideal.ofBits .f32 0x7F800000#32) f (Finset.univ : Finset (Fin 4))) hf

theorem tailFn_eq (X Y : Cloud 8192) (A2 : (⟨S8192x1, .f32⟩ : BufTy).Contents (Elt Ideal))
    (A3 : (⟨S4x1x8192, .f32⟩ : BufTy).Contents (Elt Ideal))
    (h2 : ∀ n : Fin 8192, A2 (ix2 n (0 : Fin 1)) = rowMin X Y n)
    (h3 : ∀ (i : Fin 4) (p : Fin 8192), A3 (ix3 i (0 : Fin 1) p) = colMinIn X Y i p) :
    tailFn (F := Ideal) A2 A3 = fun _ => loss X Y := by
  -- the reshaped column holds the row minima
  have e1 : ∀ j : S8192.Idx, shapeCast S8192 A2 shapeCasts_S8192x1_S8192 j = rowMin X Y (j 0) := by
    intro j
    obtain ⟨n, rfl⟩ : ∃ n : Fin 8192, j = ix1 n := ⟨j 0, eq_ix1 j⟩
    exact (cast_col_apply A2 n).trans (h2 n)
  -- the least of the four per-tile minima of a column is the column's minimum
  have e2 : ∀ j : S8192.Idx,
      Host.reduce FloatOps.minimumf (shapeCast S4x8192 A3 shapeCasts_S4x1x8192_S4x8192)
        (constant (F := Ideal) S_ .f32 0x7F800000#32) reducesTo_S4x8192_S8192_d0 h_S_ j = colMin X Y (j 0) := by
    intro j
    obtain ⟨p, rfl⟩ : ∃ p : Fin 8192, j = ix1 p := ⟨j 0, eq_ix1 j⟩
    refine (minRows_apply _ p).trans ?_
    refine Eq.trans ?_ (colMin_eq X Y p).symm
    exact Finset.inf_congr rfl fun i _ => (cast_tiles_apply A3 i p).trans (h3 i p)
  funext i
  unfold tailFn
  refine (addf_apply _ _ i).trans ?_
  rw [meanRoot_apply, meanRoot_apply]
  unfold loss
  rw [Finset.sum_congr rfl fun j _ => congrArg root (e1 j), Finset.sum_congr rfl fun j _ => congrArg root (e2 j)]

end Cert.KernelIdeal.Tail

end
-- ==== Proof.KernelRun.lean ====
/-
  The first program's run, read: its result is the mean rooted row minimum plus the mean rooted column minimum.

  The generated run leaves the two arrays of the grid at what the visits wrote back and every later buffer at what the
  lines after the grid compute from them. Those lines are one function of the two arrays; the arrays are the column of
  row minima and the partial column minima; and that function of them is the specification's result.
-/
import proofs.«165098_j65635690217854_2_alg».proof.Proof.Arrays
import proofs.«165098_j65635690217854_2_alg».proof.Proof.TailLoss
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.Nearest Cert.KernelIdeal.Inv Cert.KernelIdeal.Arrays

variable (m : (ℓ : Loc nD τ sig) → Buf (Elt Ideal) ℓ) (ρ : Dev nD → PrngReg)

/-- The lines after the grid compute their one function of the two arrays the grid leaves. -/
theorem tail_read (c : Dev nD) :
    Pipeline.afterTail₀ cfgs (dats m) 0 (V0 m) [hostOps1] c main_v14
      = Tail.tailFn ((dats m 0 c).arrAt 2 cfg0.N) ((dats m 0 c).arrAt 3 cfg0.N) := by
  have e2 : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  unfold Pipeline.afterTail₀
  show StableHlo.after hostOps1 _ (Proc.devRef .tc main_v14) = _
  after_results
  rw [e2, e3]
  rfl

/-- The result buffer is neither scoped nor one of the grid's arrays. -/
theorem result_mem : main_v14 ∈ Pipeline.restRefs sig (cfgs 0).spec :=
  Pipeline.mem_restRefs_of main_v14 rfl (by decide)

/-- The value of the result: the specification's, of the two clouds as the core finds them. -/
theorem result_value (c : Dev nD) :
    Pipeline.afterTail₀ cfgs (dats m) 0 (V0 m) [hostOps1] c main_v14 = fun _ => loss (X m c) (Y m c) := by
  rw [tail_read, final2, final3]
  exact Tail.tailFn_eq (X m c) (Y m c) (rowMins m c) (colMinsByTile m c) (fun n => rfl) (fun i p => rfl)

/-- THE RUN: every weakly fair execution ends with the result at the specification's value and the two clouds unchanged. -/
theorem run : θ_run defs (onTc (τ := τ) (main (F := Ideal))) ⟨m, fun _ => 0, ρ⟩ fun r => ∀ c : Dev nD,
      r.2.mem ((c.tc : Thread nD τ).loc main_v14) = (fun _ => loss (X m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v14 result_mem).trans (result_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KRun

end
-- ==== Proof.RefLoss.lean ====
/-
  The reference, read: its result is the mean rooted row minimum plus the mean rooted column minimum of the
  squared-distance matrix. The reference roots every entry of the clamped matrix first and takes minima of the roots;
  clamping and rooting is monotone and sends +∞ to +∞, so it passes through each finite minimum.
-/
import proofs.«165098_j65635690217854_2_alg».proof.Proof.Gen.ReferenceIdeal.Read
import proofs.«165098_j65635690217854_2_alg».proof.Proof.Spec
import proofs.«165098_j65635690217854_2_alg».proof.Proof.LibUnitAxes
import Idealize.ShloMosaic.PureOps.Reduce

noncomputable section

namespace Cert.ReferenceIdeal.RefValue

open Cert.ReferenceIdeal Idealize.ShloMosaic Idealize.ShloMosaic.ValueIdx Cert.Nearest
open scoped BigOperators

/-- The first row-sum of squares: entry `n` is the squared norm of point `n` of the first cloud. -/
theorem v1_eq (X : (⟨S8192x64, .f32⟩ : BufTy).Contents (Elt Ideal)) (n : Fin 8192) :
    Read.val_main_v1 (F := Ideal) X (ix1 n) = sqNorm X n := by
  rw [Read.val_main_v1_apply, Read.val_main_cst_apply, Ideal.ofBits_def, Ideal.ofBits_zero_f32, zero_add]
  unfold sqNorm
  refine Finset.sum_congr rfl fun k _ => ?_
  rw [Read.val_main_v0_apply, Ideal.mulf_def]
  have e : Read.idx_main_v1 (ix1 n) k = ix2 n k :=
    funext fun a => Fin.ext (by match a with | ⟨0, _⟩ => rfl | ⟨1, _⟩ => rfl)
  rw [e]

/-- The second row-sum of squares: entry `p` is the squared norm of point `p` of the second cloud. -/
theorem v4_eq (Y : (⟨S8192x64, .f32⟩ : BufTy).Contents (Elt Ideal)) (p : Fin 8192) :
    Read.val_main_v4 (F := Ideal) Y (ix1 p) = sqNorm Y p := by
  rw [Read.val_main_v4_apply, Read.val_main_cst_0_apply, Ideal.ofBits_def, Ideal.ofBits_zero_f32, zero_add]
  unfold sqNorm
  refine Finset.sum_congr rfl fun k _ => ?_
  rw [Read.val_main_v3_apply, Ideal.mulf_def]
  have e : Read.idx_main_v4 (ix1 p) k = ix2 p k :=
    funext fun a => Fin.ext (by match a with | ⟨0, _⟩ => rfl | ⟨1, _⟩ => rfl)
  rw [e]

/-- The matrix product with the transposed second cloud: entry (n, p) is the inner product of the two points. -/
theorem v10_eq (X Y : (⟨S8192x64, .f32⟩ : BufTy).Contents (Elt Ideal)) (n p : Fin 8192) :
    Read.val_main_v10 (F := Ideal) X Y (ix2 n p) = Nearest.inner X Y n p := by
  rw [Read.val_main_v10_apply]
  unfold Nearest.inner
  refine Finset.sum_congr rfl fun k _ => ?_
  rw [Read.val_main_v9_apply]
  have el : Read.lidx_main_v10 (ix2 n p) k = ix2 n k :=
    funext fun a => Fin.ext (by match a with | ⟨0, _⟩ => rfl | ⟨1, _⟩ => rfl)
  have er : Read.idx_main_v9 (Read.ridx_main_v10 (ix2 n p) k) = ix2 p k :=
    funext fun a => Fin.ext (by match a with | ⟨0, _⟩ => rfl | ⟨1, _⟩ => rfl)
  rw [el, er]

/-- The expanded squared-distance matrix: entry (n, p) is (|x|² + |y|²) − 2·⟨x, y⟩. -/
theorem v13_eq (X Y : (⟨S8192x64, .f32⟩ : BufTy).Contents (Elt Ideal)) (n p : Fin 8192) :
    Read.val_main_v13 (F := Ideal) X Y (ix2 n p) = sqDist X Y n p := by
  rw [Read.val_main_v13_apply, Read.val_main_v8_apply, Read.val_main_v12_apply, Read.val_main_v6_apply,
    Read.val_main_v2_apply, Read.val_main_v7_apply, Read.val_main_v5_apply, Read.val_main_v11_apply,
    Read.val_main_cst_1_apply, Ideal.subf_def, Ideal.addf_def, Ideal.mulf_def, Ideal.ofBits_def, v10_eq]
  have e1 : Read.idx_main_v2 (Read.idx_main_v6 (ix2 n p)) = ix1 n :=
    funext fun a => Fin.ext (by match a with | ⟨0, _⟩ => rfl)
  have e2 : Read.idx_main_v5 (Read.idx_main_v7 (ix2 n p)) = ix1 p :=
    funext fun a => Fin.ext (by match a with | ⟨0, _⟩ => rfl)
  rw [e1, e2, v1_eq, v4_eq]
  rfl

/-- The clamped and rooted matrix: entry (n, p) is the distance between the two points. -/
theorem v16_eq (X Y : (⟨S8192x64, .f32⟩ : BufTy).Contents (Elt Ideal)) (n p : Fin 8192) :
    Read.val_main_v16 (F := Ideal) X Y (ix2 n p) = root (sqDist X Y n p) := by
  rw [Read.val_main_v16_apply, Read.val_main_v15_apply, Read.val_main_v14_apply, Read.val_main_cst_2_apply,
    Ideal.hostUnary_sqrt_def, Ideal.maximumf_def, Ideal.ofBits_def, v13_eq]
  rfl

/-- The minimum along a row of the rooted matrix is the root of the row minimum of squared distances: the fold of
    `min` from +∞ over the row is the row's infimum, and the monotone root passes through it. -/
theorem v17_eq (X Y : (⟨S8192x64, .f32⟩ : BufTy).Contents (Elt Ideal)) (n : Fin 8192) :
    Read.val_main_v17 (F := Ideal) X Y (ix1 n) = root (rowMin X Y n) := by
  have h : S8192x8192.Reduces [1] S8192 := by decide
  unfold Read.val_main_v17
  refine (Host.reduce_eq_fold_single FloatOps.minimumf _ _ Gen.reducesTo_S8192x8192_S8192_d1 h Gen.h_S_ (ix1 n)).trans ?_
  refine (fold_min_eq_inf (Finset.univ : Finset (Fin 8192)) _).trans ?_
  unfold rowMin
  rw [root_inf]
  refine Finset.inf_congr rfl fun p _ => ?_
  show Read.val_main_v16 (F := Ideal) X Y (h.lift (ix1 n) p) = root (sqDist X Y n p)
  have e : h.lift (ix1 n) p = ix2 n p :=
    funext fun a => Fin.ext (by match a with | ⟨0, _⟩ => rfl | ⟨1, _⟩ => rfl)
  rw [e, v16_eq]

/-- The minimum down a column of the rooted matrix is the root of the column minimum of squared distances. -/
theorem v20_eq (X Y : (⟨S8192x64, .f32⟩ : BufTy).Contents (Elt Ideal)) (p : Fin 8192) :
    Read.val_main_v20 (F := Ideal) X Y (ix1 p) = root (colMin X Y p) := by
  have h : S8192x8192.Reduces [0] S8192 := by decide
  unfold Read.val_main_v20
  refine (Host.reduce_eq_fold_single FloatOps.minimumf _ _ Gen.reducesTo_S8192x8192_S8192_d0 h Gen.h_S_ (ix1 p)).trans ?_
  refine (fold_min_eq_inf (Finset.univ : Finset (Fin 8192)) _).trans ?_
  unfold colMin
  rw [root_inf]
  refine Finset.inf_congr rfl fun n _ => ?_
  show Read.val_main_v16 (F := Ideal) X Y (h.lift (ix1 p) n) = root (sqDist X Y n p)
  have e : h.lift (ix1 p) n = ix2 n p :=
    funext fun a => Fin.ext (by match a with | ⟨0, _⟩ => rfl | ⟨1, _⟩ => rfl)
  rw [e, v16_eq]

theorem result_eq (X Y : (⟨S8192x64, .f32⟩ : BufTy).Contents (Elt Ideal)) :
    Cert.ReferenceIdeal.Read.val_main_v23 (F := Ideal) X Y = fun _ => loss X Y := by
  funext i
  rw [Read.val_main_v23_apply, Read.val_main_v19_apply, Read.val_main_v22_apply, Read.val_main_v18_apply,
    Read.val_main_v21_apply, Read.val_main_cst_4_apply, Read.val_main_cst_7_apply, Read.val_main_cst_5_apply,
    Read.val_main_cst_8_apply, Ideal.addf_def, Ideal.hostDivf_def, Ideal.hostDivf_def, Ideal.ofBits_def,
    Ideal.ofBits_def, Ideal.ofBits_zero_f32, zero_add, zero_add]
  unfold loss
  have hr : ∀ j : S8192.Idx, Read.val_main_v17 (F := Ideal) X Y j = root (rowMin X Y (j 0)) := fun j => by
    obtain ⟨n, rfl⟩ : ∃ n : Fin 8192, j = ix1 n := ⟨j 0, eq_ix1 j⟩
    exact v17_eq X Y n
  have hc : ∀ j : S8192.Idx, Read.val_main_v20 (F := Ideal) X Y j = root (colMin X Y (j 0)) := fun j => by
    obtain ⟨p, rfl⟩ : ∃ p : Fin 8192, j = ix1 p := ⟨j 0, eq_ix1 j⟩
    exact v20_eq X Y p
  rw [Finset.sum_congr rfl fun j _ => hr j, Finset.sum_congr rfl fun j _ => hc j]
  rfl

end Cert.ReferenceIdeal.RefValue

end
-- ==== Proof.lean ====
/-
  Two programs compute one number from two clouds of 8192 points in 64 coordinates: the mean distance from a point of
  the first cloud to its nearest point of the second, plus the mean distance from a point of the second to its nearest
  point of the first, with squared distances taken through |x|² + |y|² − 2·⟨x, y⟩.

  The reference forms the whole 8192 × 8192 matrix of squared distances, clamps it at zero, roots every entry and then
  takes row and column minima. The other program never forms the matrix: it visits it in 4 × 4 tiles of 2048 × 2048,
  keeps a running column of row minima across the four tiles of a row of tiles, writes each tile's column minima out,
  and only at the end clamps, roots and averages — the row minima directly, the column minima after taking the least of
  the four partial minima of each column.

  Over the extended reals the two agree exactly, with no assumption on the inputs: a minimum over 8192 columns is the
  minimum of the minima over four groups of 2048 (and likewise for rows); a tile of the matrix of squared distances is
  the matrix of squared distances of the two tiles of points; and clamping at zero followed by the root is monotone and
  sends +∞ to +∞, so it passes through every finite minimum, which is what lets one program root after minimizing where
  the other roots first. The sums, the divisions by 8192 and the final addition are the same operations on both sides.
  The word-level program and its reading over the extended reals are one text, so nothing was rewritten between them.
-/
import proofs.«165098_j65635690217854_2_alg».proof.Defs
import proofs.«165098_j65635690217854_2_alg».proof.Proof.Gen.Kernel
import proofs.«165098_j65635690217854_2_alg».proof.Proof.Gen.Kernel.Frame
import proofs.«165098_j65635690217854_2_alg».proof.Proof.Gen.KernelIdeal
import proofs.«165098_j65635690217854_2_alg».proof.Proof.Gen.KernelIdeal.Frame
import proofs.«165098_j65635690217854_2_alg».proof.Proof.Gen.ReferenceIdeal
import proofs.«165098_j65635690217854_2_alg».proof.Proof.Gen.Pre_finite_inputs
import proofs.«165098_j65635690217854_2_alg».proof.Proof.Gen.ReferenceIdeal.Run
import proofs.«165098_j65635690217854_2_alg».proof.Proof.Gen.ReferenceIdeal.Read
import proofs.«165098_j65635690217854_2_alg».proof.Proof.KernelRun
import proofs.«165098_j65635690217854_2_alg».proof.Proof.RefLoss

noncomputable section

namespace Cert.Proof

open Idealize.ShloMosaic Idealize.SL.Sem

/-- The word-level program runs to completion and leaves the two clouds as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of array operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same number: each ends at the specification's value of the two clouds it was given, and
    the clouds agree. -/
theorem algebraic : Cert.algebraic_KernelIdeal_ReferenceIdeal := by
  intro m ρ m' ρ' _ hagree
  refine ⟨fun c => fun _ => Cert.Nearest.loss (Cert.KernelIdeal.Inv.X m c) (Cert.KernelIdeal.Inv.Y m c),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
